-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S256 : Shape := ⟨1, ![256]⟩
abbrev S_ : Shape := ⟨0, ![]⟩
abbrev S256x256 : Shape := ⟨2, ![256, 256]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  reducesTo_S_S_d : S_.ReducesTo [] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_v32 : IVec S_ 1) (main_v33 : FVec F S_ .f32) : IVec S_ 1 :=
  let main_cst_12 : FVec F S_ .f32 := constant S_ .f32 0x7F800000#32
  let main_v34 : IVec S_ 1 := cmpf .olt main_v33 main_cst_12
  let main_c_13 : IVec S_ 1 := constantI S_ 1 1#1
  let main_v35 : IVec S_ 1 := (fun x v => Host.reduce IntOp.andi x v reducesTo_S_S_d h_S_) main_v34 main_c_13
  let main_v36 : IVec S_ 1 := andi main_v32 main_v35
  main_v36

def fn_part1 {F : FTy → Type} [FloatOps F] (main_arg4 : FVec F S_ .f32) (main_arg5 : FVec F S256x256 .f32) (main_arg6 : FVec F S256 .f32) (main_arg7 : FVec F S_ .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_v23 : FVec F S256x256 .f32 := Host.absf main_arg5
  let main_cst_8 : FVec F S_ .f32 := constant S_ .f32 0x7F800000#32
  let main_v24 : FVec F S256x256 .f32 := broadcastInDim S256x256 ![] bcast_S_S256x256 main_cst_8
  let main_v25 : IVec S256x256 1 := cmpf .olt main_v23 main_v24
  let main_c_9 : IVec S_ 1 := constantI S_ 1 1#1
  let main_v26 : IVec S_ 1 := (fun x v => Host.reduce IntOp.andi x v reducesTo_S256x256_S_d0_1 h_S_) main_v25 main_c_9
  let main_v27 : IVec S_ 1 := andi main_v22 main_v26
  let main_v28 : FVec F S256 .f32 := Host.absf main_arg6
  let main_cst_10 : FVec F S_ .f32 := constant S_ .f32 0x7F800000#32
  let main_v29 : FVec F S256 .f32 := broadcastInDim S256 ![] bcast_S_S256 main_cst_10
  let main_v30 : IVec S256 1 := cmpf .olt main_v28 main_v29
  let main_c_11 : IVec S_ 1 := constantI S_ 1 1#1
  let main_v31 : IVec S_ 1 := (fun x v => Host.reduce IntOp.andi x v reducesTo_S256_S_d0 h_S_) main_v30 main_c_11
  let main_v32 : IVec S_ 1 := andi main_v27 main_v31
  let main_v33 : FVec F S_ .f32 := Host.absf main_arg7
  fn_part2 (F := F) main_v32 main_v33

def fn {F : FTy → Type} [FloatOps F] (main_arg0 : FVec F S10000x128 .f32) (main_arg1 : FVec F S10000x10000 .f32) (main_arg2 : FVec F S128x256 .f32) (main_arg3 : FVec F S256 .f32) (main_arg4 : FVec F S_ .f32) (main_arg5 : FVec F S256x256 .f32) (main_arg6 : FVec F S256 .f32) (main_arg7 : FVec F S_ .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x256 : Shape := ⟨2, ![128, 256]⟩
abbrev S256 : Shape := ⟨1, ![256]⟩
abbrev S_ : Shape := ⟨0, ![]⟩
abbrev S256x256 : Shape := ⟨2, ![256, 256]⟩
abbrev S1x1 : Shape := ⟨2, ![1, 1]⟩
abbrev S1x256 : Shape := ⟨2, ![1, 256]⟩
abbrev S10000x256 : Shape := ⟨2, ![10000, 256]⟩
abbrev S400x10000 : Shape := ⟨2, ![400, 10000]⟩
abbrev S400x256 : Shape := ⟨2, ![400, 256]⟩
abbrev S400x128 : Shape := ⟨2, ![400, 128]⟩

abbrev nBuf : Space → Nat
  | .hbm => 21
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S256, .f32⟩
  | .hbm, ⟨4, _⟩ => ⟨S_, .f32⟩
  | .hbm, ⟨5, _⟩ => ⟨S256x256, .f32⟩
  | .hbm, ⟨6, _⟩ => ⟨S256, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S1x1, .f32⟩
  | .hbm, ⟨14, _⟩ => ⟨S10000x128, .bf16⟩
  | .hbm, ⟨15, _⟩ => ⟨S128x256, .bf16⟩
  | .hbm, ⟨16, _⟩ => ⟨S1x256, .f32⟩
  | .hbm, ⟨17, _⟩ => ⟨S10000x256, .bf16⟩
  | .hbm, ⟨18, _⟩ => ⟨S256x256, .bf16⟩
  | .hbm, ⟨19, _⟩ => ⟨S1x256, .f32⟩
  | .hbm, ⟨20, _⟩ => ⟨S10000x256, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S128x256, .bf16⟩
  | .local _ .vmem, ⟨4, _⟩ => ⟨S1x256, .f32⟩
  | .local _ .vmem, ⟨5, _⟩ => ⟨S1x1, .f32⟩
  | .local _ .vmem, ⟨6, _⟩ => ⟨S400x256, .bf16⟩
  | .local _ .vmem, ⟨7, _⟩ => ⟨S400x256, .bf16⟩
  | .local _ .vmem, ⟨8, _⟩ => ⟨S400x10000, .f32⟩
  | .local _ .vmem, ⟨9, _⟩ => ⟨S400x10000, .f32⟩
  | .local _ .vmem, ⟨10, _⟩ => ⟨S10000x256, .bf16⟩
  | .local _ .vmem, ⟨11, _⟩ => ⟨S256x256, .bf16⟩
  | .local _ .vmem, ⟨12, _⟩ => ⟨S1x256, .f32⟩
  | .local _ .vmem, ⟨13, _⟩ => ⟨S1x1, .f32⟩
  | .local _ .vmem, ⟨14, _⟩ => ⟨S400x256, .f32⟩
  | .local _ .vmem, ⟨15, _⟩ => ⟨S400x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v7 : BitVec 32 := Scalar.muli arg0 c400_i32
  let v8 : Index := Scalar.indexCast v7
  let c0_5 : Index := 0#32
  ![v8.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def k1_off1 (i : grid1.Coords) : Fin 2 → Nat :=
  let arg0 : BitVec 32 := BitVec.ofNat 32 (i 0).val
  let c400_i32 : BitVec 32 := 400#32
  let v7 : BitVec 32 := Scalar.muli arg0 c400_i32
  let v8 : Index := Scalar.indexCast v7
  let c0_5 : Index := 0#32
  ![v8.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S_S1x1 : S_.ShapeCasts S1x1
  bitsLt_bf16_f32 : FTy.bits .bf16 < FTy.bits .f32
  shapeCasts_S256_S1x256 : S256.ShapeCasts S1x256
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  h_S400x128 : 0 < S400x128.numel
  shapeCasts_S400x128_S400x128 : S400x128.ShapeCasts S400x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S400x256_S400x256_0_0 : ∀ a, (![0, 0] : Fin 2 → Nat) a + S400x256.size a ≤ S400x256.size a
  h_S400x256 : 0 < S400x256.numel
  packedbf16_S400x256_S400x256_0_0 : (Rect.unit (s := S400x256) ![0, 0] S400x256.size inb_S400x256_S400x256_0_0).PackedRows (EltTy.packing .bf16)
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  shapeCasts_S400x256_S400x256 : S400x256.ShapeCasts S400x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  dot_S400x10000_S10000x128_S400x128_1_0_0_1_n_n_wf : DotDims.WF S400x10000 S10000x128 S400x128 [1] [0] [0] [1] [] []
  dot_S400x128_S128x256_S400x256_1_0_0_1_n_n_wf : DotDims.WF S400x128 S128x256 S400x256 [1] [0] [0] [1] [] []
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  hrank0 : 0 < grid0.rank
  k0_off1_inb : ∀ i : grid0.Coords, ∀ a, (k0_off1 i) a + S400x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x256.size a ≤ S10000x256.size a
  hwx0_5 : ∀ i : grid0.Coords, EltTy.bits .bf16 = 32 ∨ (Rect.block (s := S10000x256) S400x256.size (cc0_transform_5 i) (hinb0_5 i)).WholeWords (EltTy.packing .bf16)
  hrank1 : 0 < grid1.rank
  k1_off1_inb : ∀ i : grid1.Coords, ∀ a, (k1_off1 i) a + S400x256.size a ≤ S10000x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x256.size a ≤ S10000x256.size a
  hwx1_5 : ∀ i : grid1.Coords, EltTy.bits .f32 = 32 ∨ (Rect.block (s := S10000x256) S400x256.size (cc1_transform_5 i) (hinb1_5 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S400x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S400x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S256 : Shape := ⟨1, ![256]⟩
abbrev S_ : Shape := ⟨0, ![]⟩
abbrev S256x256 : Shape := ⟨2, ![256, 256]⟩
abbrev S10000x256 : Shape := ⟨2, ![10000, 256]⟩
abbrev S1x256 : Shape := ⟨2, ![1, 256]⟩

abbrev nBuf : Space → Nat
  | .hbm => 31
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S256, .f32⟩
  | .hbm, ⟨4, _⟩ => ⟨S_, .f32⟩
  | .hbm, ⟨5, _⟩ => ⟨S256x256, .f32⟩
  | .hbm, ⟨6, _⟩ => ⟨S256, .f32⟩
  | .hbm, ⟨7, _⟩ => ⟨S_, .f32⟩
  | .hbm, ⟨8, _⟩ => ⟨S10000x128, .f32⟩
  | .hbm, ⟨9, _⟩ => ⟨S_, .f32⟩
  | .hbm, ⟨10, _⟩ => ⟨S_, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S10000x256, .f32⟩
  | .hbm, ⟨15, _⟩ => ⟨S1x256, .f32⟩
  | .hbm, ⟨16, _⟩ => ⟨S10000x256, .f32⟩
  | .hbm, ⟨17, _⟩ => ⟨S10000x256, .f32⟩
  | .hbm, ⟨18, _⟩ => ⟨S_, .f32⟩
  | .hbm, ⟨19, _⟩ => ⟨S10000x256, .f32⟩
  | .hbm, ⟨20, _⟩ => ⟨S10000x256, .f32⟩
  | .hbm, ⟨21, _⟩ => ⟨S10000x256, .f32⟩
  | .hbm, ⟨22, _⟩ => ⟨S_, .f32⟩
  | .hbm, ⟨23, _⟩ => ⟨S_, .f32⟩
  | .hbm, ⟨24, _⟩ => ⟨S10000x256, .f32⟩
  | .hbm, ⟨25, _⟩ => ⟨S10000x256, .f32⟩
  | .hbm, ⟨26, _⟩ => ⟨S10000x256, .f32⟩
  | .hbm, ⟨27, _⟩ => ⟨S10000x256, .f32⟩
  | .hbm, ⟨28, _⟩ => ⟨S1x256, .f32⟩
  | .hbm, ⟨29, _⟩ => ⟨S10000x256, .f32⟩
  | .hbm, ⟨30, _⟩ => ⟨S10000x256, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_cst : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S10000x10000_S10000x128_S10000x128_1_0_0_1_n_n_wf : DotDims.WF S10000x10000 S10000x128 S10000x128 [1] [0] [0] [1] [] []
  dot_S10000x128_S128x256_S10000x256_1_0_0_1_n_n_wf : DotDims.WF S10000x128 S128x256 S10000x256 [1] [0] [0] [1] [] []
  dot_S10000x10000_S10000x256_S10000x256_1_0_0_1_n_n_wf : DotDims.WF S10000x10000 S10000x256 S10000x256 [1] [0] [0] [1] [] []
  dot_S10000x256_S256x256_S10000x256_1_0_0_1_n_n_wf : DotDims.WF S10000x256 S256x256 S10000x256 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.KernelRun.lean ====
/-
  The idealized kernel program's run with its result array named.

  The program is two kernel regions among stretches of host operations. Its buffers at the end of the run are the
  fold `W4` of the launch memory through the four segments: the host operations before the first region, the first
  region's write-backs, the host operations between the regions, the second region's write-backs. Every weakly fair
  execution terminates with each buffer that outlives the regions at that fold, so the result array `%10` ends at
  `W4` read at its buffer, and each argument array ends as launched. The later modules read `W4` at the result
  buffer as a function of the argument arrays.
-/
import proofs.«107812_g46196668235778_cont_8to1c4_352_3_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents `W4` and the argument arrays as launched: the launch over the four segments, the last thread
    state (every buffer that outlives the regions, at `W4`) read against the final memory. -/
theorem run_main : θ_run defs (onTc (τ := τ) (main (F := F))) ⟨m, fun _ => 0, ρ⟩ (fun r => ∀ c : Dev nD,
      r.2.mem ((c.tc : Thread nD τ).loc main_v10) = W4 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v10 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Whole

end
-- ==== Proof.Found0.lean ====
/-
  What the body of region 0 leaves in its output's staging buffer.

  The body makes one store, through the whole [400, 256] block, of its payload; the payload's operands are the whole
  staging buffers of the adjacency band, the features, the weights, the bias row and the scale, and the 400 rows of the
  features that start at row 400 · i (i the grid coordinate). So the buffer ends holding the payload of the input
  blocks, with the band's own feature rows read out of the feature block.
-/
import proofs.«107812_g46196668235778_cont_8to1c4_352_3_alg».proof.Proof.Gen.KernelIdeal.Frame
import Idealize.ShloMosaic.Lib.Pipeline.Value
import Idealize.ShloMosaic.Lib.Tactic

noncomputable section

namespace Cert.KernelIdeal.Found0

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- The output's staging buffer after the body: the payload of the input blocks, the band's own feature rows being
    rows 400 · i … 400 · i + 399 of the feature block. -/
theorem piece (c : Dev nD) (i : grid0.Coords) (a1 : Memref sig .tc .vmem S400x10000 .f32) (h1 : a1.IsWhole)
    (a2 : Memref sig .tc .vmem S10000x128 .bf16) (h2 : a2.IsWhole) (a3 : Memref sig .tc .vmem S128x256 .bf16) (h3 : a3.IsWhole)
    (a4 : Memref sig .tc .vmem S1x256 .f32) (h4 : a4.IsWhole) (a5 : Memref sig .tc .vmem S1x1 .f32) (h5 : a5.IsWhole)
    (a6 : Memref sig .tc .vmem S400x256 .bf16) (h6 : a6.IsWhole)
    (x0 : Vec F S400x10000 .f32) (x1 : Vec F S10000x128 .bf16) (x2 : Vec F S128x256 .bf16) (x3 : Vec F S1x256 .f32) (x4 : Vec F S1x1 .f32) :
    out0_A_5 c i a1 h1 a2 h2 a3 h3 a4 h4 a5 h5 a6 h6 x0 x1 x2 x3 x4
      = k0_pay1 x0 x1 x4 (View.ld x1 (Rect.unit (s := S10000x128) (k0_off1 i) S400x128.size (k0_off1_inb i))) x2 x3 := by
  unfold out0_A_5
  rw [View.read_writes_eq_canon _ _ _ (cover0_A_5 c i a1 h1 a2 h2 a3 h3 a4 h4 a5 h5 a6 h6 x0 x1 x2 x3 x4)]
  unfold kernelRun0_A
  dsimp only
  rw [View.canon_unit_zero hz]
  simp only [View.readAt_eq_ld, h1.read_unread, h2.read_unread, h3.read_unread, h4.read_unread, h5.read_unread,
    View.ld_unit_zero (S := S400x10000) hz, View.ld_unit_zero (S := S10000x128) hz, View.ld_unit_zero (S := S128x256) hz,
    View.ld_unit_zero (S := S1x256) hz, View.ld_unit_zero (S := S1x1) hz]

end Cert.KernelIdeal.Found0

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.Band0.lean ====
/-
  The first layer's row band, entry by entry.

  At a grid point the body holds a band of 400 rows of the adjacency matrix (`x0`), the whole feature matrix (`x1`), the
  band's own 400 rows of it (`x9`), the weights (`x2`), the bias as a [1, 256] row (`x3`) and the scale as a [1, 1]
  array (`x4`). What it stores at (p, q) is max(·, 0) of the layer's entry for the band's row p and column q: the two
  matrix products are sums over their contracted axes, the changes of float format are the identity on extended
  reals, and the bias row is broadcast over the band's rows.
-/
import proofs.«107812_g46196668235778_cont_8to1c4_352_3_alg».proof.Proof.Gen.KernelIdeal.Skeleton
import proofs.«107812_g46196668235778_cont_8to1c4_352_3_alg».proof.Proof.LibDenseLayer
import Idealize.ShloMosaic.Lib.ValueLayout

noncomputable section

namespace Cert.KernelIdeal.Band0

open Cert.KernelIdeal Cert.KernelIdeal.Gen Cert.DenseLayer
open Idealize.ShloMosaic Idealize.ShloMosaic.ValueIdx

/-- The first product's index facts: [400, 10000] by [10000, 128], contracting the long axis. -/
theorem agg_l0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem agg_r1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The neighbours' sum at (p, j): row p of the band times column j of the features. -/
theorem agg_apply {φ₁ φ₂ : FTy} (L : FVec Ideal S400x10000 φ₁) (R : FVec Ideal S10000x128 φ₂) (p : Fin 400) (j : Fin 128) :
    FloatOps.matmul dot_S400x10000_S10000x128_S400x128_1_0_0_1_n_n none L R (constant S400x128 .f32 0x00000000#32) (ix2 p j)
      = ∑ k : Fin 10000, L (ix2 p k) * R (ix2 k j) :=
  matmul_rows_cols dot_S400x10000_S10000x128_S400x128_1_0_0_1_n_n rfl rfl agg_l0
    (fun i q => dot_S400x10000_S10000x128_S400x128_1_0_0_1_n_n.lhsIdx_val_of_single rfl i q)
    (fun i q => dot_S400x10000_S10000x128_S400x128_1_0_0_1_n_n.rhsIdx_val_of_single rfl i q) agg_r1 none L R p j

/-- The second product's index facts: [400, 128] by [128, 256]. -/
theorem lin_l0 (i : S400x256.Idx) (q : dot_S400x128_S128x256_S400x256_1_0_0_1_n_n.contr.Idx) :
    (dot_S400x128_S128x256_S400x256_1_0_0_1_n_n.lhsIdx i q 0).val = (i 0).val := by
  unfold DotDims.lhsIdx
  rw [dif_neg (show ¬(0 : Fin S400x128.rank) ∈ dot_S400x128_S128x256_S400x256_1_0_0_1_n_n.lhsBatch by decide), dif_pos (show (0 : Fin S400x128.rank) ∈ dot_S400x128_S128x256_S400x256_1_0_0_1_n_n.lhsNonContracting by decide)]
  rfl
theorem lin_r1 (i : S400x256.Idx) (q : dot_S400x128_S128x256_S400x256_1_0_0_1_n_n.contr.Idx) :
    (dot_S400x128_S128x256_S400x256_1_0_0_1_n_n.rhsIdx i q 1).val = (i 1).val := by
  unfold DotDims.rhsIdx
  rw [dif_neg (show ¬(1 : Fin S128x256.rank) ∈ dot_S400x128_S128x256_S400x256_1_0_0_1_n_n.rhsBatch by decide), dif_pos (show (1 : Fin S128x256.rank) ∈ dot_S400x128_S128x256_S400x256_1_0_0_1_n_n.rhsNonContracting by decide)]
  rfl

/-- The linear map at (p, q): row p of the hidden band times column q of the weights. -/
theorem lin_apply {φ₁ φ₂ : FTy} (L : FVec Ideal S400x128 φ₁) (R : FVec Ideal S128x256 φ₂) (p : Fin 400) (q : Fin 256) :
    FloatOps.matmul dot_S400x128_S128x256_S400x256_1_0_0_1_n_n none L R (constant S400x256 .f32 0x00000000#32) (ix2 p q)
      = ∑ j : Fin 128, L (ix2 p j) * R (ix2 j q) :=
  matmul_rows_cols dot_S400x128_S128x256_S400x256_1_0_0_1_n_n rfl rfl lin_l0
    (fun i q => dot_S400x128_S128x256_S400x256_1_0_0_1_n_n.lhsIdx_val_of_single rfl i q)
    (fun i q => dot_S400x128_S128x256_S400x256_1_0_0_1_n_n.rhsIdx_val_of_single rfl i q) lin_r1 none L R p q

/-- What the body stores at (p, q) of the band: max(·, 0) of the layer's entry from row p of the adjacency band and
    row p of the band's own features. -/
theorem band_apply (x0 : Vec Ideal S400x10000 .f32) (x1 : Vec Ideal S10000x128 .bf16) (x4 : Vec Ideal S1x1 .f32)
    (x9 : Vec Ideal S400x128 .bf16) (x2 : Vec Ideal S128x256 .bf16) (x3 : Vec Ideal S1x256 .f32) (p : Fin 400) (q : Fin 256) :
    k0_pay1 (F := Ideal) x0 x1 x4 x9 x2 x3 (ix2 p q)
      = max (rowLayer (fun k => x0 (ix2 p k)) x1 x2 (fun c => x3 (ix2 (0 : Fin 1) c)) (x4 (ix2 (0 : Fin 1) (0 : Fin 1)))
          (fun j => x9 (ix2 p j)) q) (Ideal.ofBits .f32 0x00000000#32) := by
  unfold k0_pay1
  simp only [shapeCast_self]
  refine congrArg (max · (Ideal.ofBits .f32 0x00000000#32)) ?_
  unfold rowLayer
  refine congrArg₂ (· + ·) ?_ (broadcastTo_1b_ab_apply x3 _ p q)
  refine (lin_apply (φ₁ := .bf16) (φ₂ := .bf16) _ x2 p q).trans (Finset.sum_congr rfl fun j _ => ?_)
  refine congrArg (· * x2 (ix2 j q)) ?_
  have e4 : extractAt ![0, 0] x4 inpos_S1x1_p0_0 = x4 (ix2 (0 : Fin 1) (0 : Fin 1)) :=
    congrArg x4 (funext fun a => by match a with | ⟨0, _⟩ => rfl | ⟨1, _⟩ => rfl)
  exact congrArg₂ (· + ·) (agg_apply (φ₁ := .bf16) (φ₂ := .bf16) (truncf .bf16 x0 bitsLt_bf16_f32) x1 p j)
    (congrArg (· * x9 (ix2 p j)) e4)

end Cert.KernelIdeal.Band0

end
-- ==== Proof.Layer0.lean ====
/-
  Region 0: the output array after the region is the rectified first layer of the arrays the region finds.

  The grid has 25 points; point t reads rows 400 t … 400 t + 399 of the adjacency matrix, the whole feature matrix, the
  weights, the bias row and the scale, and writes back rows 400 t … 400 t + 399 of the output. At row p and column q of
  its block the body's payload is the layer's entry (400 t + p, q), rectified (the band lemma), the band's own feature rows being
  rows 400 t + p of the whole feature block; the 25 blocks tile the [10000, 256] output, so the array ends holding the
  layer's output, as one function of the arrays at the region's entry (`V`).
-/
import proofs.«107812_g46196668235778_cont_8to1c4_352_3_alg».proof.Proof.Gen.KernelIdeal.Frame
import proofs.«107812_g46196668235778_cont_8to1c4_352_3_alg».proof.Proof.Found0
import proofs.«107812_g46196668235778_cont_8to1c4_352_3_alg».proof.Proof.Band0
import proofs.«107812_g46196668235778_cont_8to1c4_352_3_alg».proof.Proof.LibDenseLayer
import Idealize.ShloMosaic.Lib.Pipeline.Value

noncomputable section

namespace Cert.KernelIdeal.Layer0

open Cert.KernelIdeal Cert.KernelIdeal.Gen Cert.DenseLayer
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps and the body's row offset, decided once over the 25 grid points: the adjacency band and
    the output block move with the point, every other window stays at block (0, 0), and the body reads its own
    feature rows from row 400 t. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ k0_off1 (grid0.coords t) (0 : Fin 2) = 400 * t.val ∧ k0_off1 (grid0.coords t) (1 : Fin 2) = 0 :=
  (by decide +kernel : ∀ t : Fin grid0.N, _)

/-- The layer's output as one function of the arrays the region finds: entry (r, c) from the adjacency matrix, the
    features, the weights, the bias row and the scale. -/
def out (c : Dev nD) : S10000x256.Idx → EReal := fun i =>
  max (layerAt (N := 10000) (K := 128) (M := 256) (V c main_arg1) (V c main_v4) (V c main_v5)
    (fun q => V c main_v6 (ix2 (0 : Fin 1) q)) (V c main_v1 (ix2 (0 : Fin 1) (0 : Fin 1))) (i 0) (i 1)) (Ideal.ofBits .f32 0x00000000#32)

/-- The body's payload at index `y` of the band, on blocks of literal shapes: the layer's entry from row `y 0` of the
    adjacency band and row `o + y 0` of the feature block, `o` the body's row offset. -/
theorem point (x0 : Vec Ideal S400x10000 .f32) (x1 : Vec Ideal S10000x128 .bf16) (x4 : Vec Ideal S1x1 .f32)
    (x2 : Vec Ideal S128x256 .bf16) (x3 : Vec Ideal S1x256 .f32) (i : grid0.Coords) (y : S400x256.Idx) (o : ℕ)
    (ho : k0_off1 i (0 : Fin 2) = o) (ho1 : k0_off1 i (1 : Fin 2) = 0) (hr : o + (y 0).val < 10000) :
    k0_pay1 (F := Ideal) x0 x1 x4 (View.ld x1 (Rect.unit (s := S10000x128) (k0_off1 i) S400x128.size (k0_off1_inb i))) x2 x3 y
      = max (rowLayer (fun k => x0 (ix2 (y 0 : Fin 400) k)) x1 x2 (fun c => x3 (ix2 (0 : Fin 1) c))
          (x4 (ix2 (0 : Fin 1) (0 : Fin 1))) (fun j => x1 (ix2 (⟨o + (y 0).val, hr⟩ : Fin 10000) j)) (y 1 : Fin 256)) (Ideal.ofBits .f32 0x00000000#32) := by
  obtain ⟨p, q, rfl⟩ : ∃ (p : Fin 400) (q : Fin 256), y = ix2 p q := ⟨y 0, y 1, eq_ix2 y⟩
  refine (Band0.band_apply x0 x1 x4 _ x2 x3 p q).trans ?_
  have e : (fun j : Fin 128 => View.ld x1 (Rect.unit (s := S10000x128) (k0_off1 i) S400x128.size (k0_off1_inb i)) (ix2 p j))
      = fun j => x1 (ix2 (⟨o + p.val, hr⟩ : Fin 10000) j) :=
    funext fun j => congrArg x1 (funext fun a => Fin.ext (by
      match a with
      | ⟨0, _⟩ => show k0_off1 i (0 : Fin 2) + 1 * p.val = o + p.val; rw [ho]; omega
      | ⟨1, _⟩ => show k0_off1 i (1 : Fin 2) + 1 * j.val = j.val; rw [ho1]; omega))
  rw [e]

/-- Each window that stays at block (0, 0) and whose block is its whole array reads that array. -/
theorem blkX (c : Dev nD) (t : Fin cfg0.N) : (iblk0 V c 1 t : S10000x128.Idx → EReal) = V c main_v4 := by
  obtain ⟨-, -, e0, e1, -⟩ := idx_facts t
  funext j
  show V c main_v4 (((cfg0.win 1).blk t).view.emb j) = V c main_v4 j
  refine congrArg (V c main_v4) (funext fun a => Fin.ext ?_)
  match a with
  | ⟨0, _⟩ => show win0_1.index t (0 : Fin 2) * 10000 + 1 * (j 0).val = (j 0).val; rw [e0]; omega
  | ⟨1, _⟩ => show win0_1.index t (1 : Fin 2) * 128 + 1 * (j 1).val = (j 1).val; rw [e1]; omega
theorem blkW (c : Dev nD) (t : Fin cfg0.N) : (iblk0 V c 2 t : S128x256.Idx → EReal) = V c main_v5 := by
  obtain ⟨-, -, -, -, e0, e1, -⟩ := idx_facts t
  funext j
  show V c main_v5 (((cfg0.win 2).blk t).view.emb j) = V c main_v5 j
  refine congrArg (V c main_v5) (funext fun a => Fin.ext ?_)
  match a with
  | ⟨0, _⟩ => show win0_2.index t (0 : Fin 2) * 128 + 1 * (j 0).val = (j 0).val; rw [e0]; omega
  | ⟨1, _⟩ => show win0_2.index t (1 : Fin 2) * 256 + 1 * (j 1).val = (j 1).val; rw [e1]; omega
theorem blkB (c : Dev nD) (t : Fin cfg0.N) : (iblk0 V c 3 t : S1x256.Idx → EReal) = V c main_v6 := by
  obtain ⟨-, -, -, -, -, -, e0, e1, -⟩ := idx_facts t
  funext j
  show V c main_v6 (((cfg0.win 3).blk t).view.emb j) = V c main_v6 j
  refine congrArg (V c main_v6) (funext fun a => Fin.ext ?_)
  match a with
  | ⟨0, _⟩ => show win0_3.index t (0 : Fin 2) * 1 + 1 * (j 0).val = (j 0).val; rw [e0]; omega
  | ⟨1, _⟩ => show win0_3.index t (1 : Fin 2) * 256 + 1 * (j 1).val = (j 1).val; rw [e1]; omega
theorem blkS (c : Dev nD) (t : Fin cfg0.N) : (iblk0 V c 4 t : S1x1.Idx → EReal) = V c main_v1 := by
  obtain ⟨-, -, -, -, -, -, -, -, e0, e1, -⟩ := idx_facts t
  funext j
  show V c main_v1 (((cfg0.win 4).blk t).view.emb j) = V c main_v1 j
  refine congrArg (V c main_v1) (funext fun a => Fin.ext ?_)
  match a with
  | ⟨0, _⟩ => show win0_4.index t (0 : Fin 2) * 1 + 1 * (j 0).val = (j 0).val; rw [e0]; omega
  | ⟨1, _⟩ => show win0_4.index t (1 : Fin 2) * 1 + 1 * (j 1).val = (j 1).val; rw [e1]; omega

/-- Row p of point t's adjacency band is row 400 t + p of the adjacency matrix. -/
theorem blkA (c : Dev nD) (t : Fin cfg0.N) (p : Fin 400) (k : Fin 10000) (hr : 400 * t.val + p.val < 10000) :
    (iblk0 V c 0 t : S400x10000.Idx → EReal) (ix2 p k) = V c main_arg1 (ix2 (⟨400 * t.val + p.val, hr⟩ : Fin 10000) k) := by
  obtain ⟨e0, e1, -⟩ := idx_facts t
  show V c main_arg1 (((cfg0.win 0).blk t).view.emb (ix2 p k)) = _
  refine congrArg (V c main_arg1) (funext fun a => Fin.ext ?_)
  match a with
  | ⟨0, _⟩ => show win0_0.index t (0 : Fin 2) * 400 + 1 * p.val = 400 * t.val + p.val; rw [e0]; omega
  | ⟨1, _⟩ => show win0_0.index t (1 : Fin 2) * 10000 + 1 * k.val = k.val; rw [e1]; omega

/-- What point t writes back is block t of the layer's output. -/
theorem flushed_eq (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold outsAt0
  rw [Found0.piece]
  have hN : cfg0.N = 25 := N_0
  have ht : t.val < 25 := by have := t.isLt; omega
  obtain ⟨-, -, -, -, -, -, -, -, -, -, e50, e51, eo0, eo1⟩ := idx_facts t
  funext y
  have hy0 : (y 0).val < 400 := (y 0).isLt
  have hy1 : (y 1).val < 256 := (y 1).isLt
  have hr : 400 * t.val + (y 0).val < 10000 := by omega
  have he : ((cfg0.win 5).blk t).view.emb y = ix2 (⟨400 * t.val + (y 0).val, hr⟩ : Fin 10000) (⟨(y 1).val, hy1⟩ : Fin 256) :=
    funext fun a => Fin.ext (by
      match a with
      | ⟨0, _⟩ => show win0_5.index t (0 : Fin 2) * 400 + 1 * (y 0).val = 400 * t.val + (y 0).val; rw [e50]; omega
      | ⟨1, _⟩ => show win0_5.index t (1 : Fin 2) * 256 + 1 * (y 1).val = (y 1).val; rw [e51]; omega)
  show k0_pay1 (F := Ideal) (iblk0 V c 0 t) (iblk0 V c 1 t) (iblk0 V c 4 t)
      (View.ld (iblk0 V c 1 t) (Rect.unit (s := S10000x128) (k0_off1 (grid0.coords t)) S400x128.size (k0_off1_inb (grid0.coords t))))
      (iblk0 V c 2 t) (iblk0 V c 3 t) y = out V c (((cfg0.win 5).blk t).view.emb y)
  rw [he, blkX, blkW, blkB, blkS]
  refine (point (iblk0 V c 0 t) (V c main_v4) (V c main_v1) (V c main_v5) (V c main_v6) (grid0.coords t) y (400 * t.val) eo0 eo1 hr).trans ?_
  show _ = max (layerAt (N := 10000) (K := 128) (M := 256) (V c main_arg1) (V c main_v4) (V c main_v5)
    (fun q => V c main_v6 (ix2 (0 : Fin 1) q)) (V c main_v1 (ix2 (0 : Fin 1) (0 : Fin 1))) (⟨400 * t.val + (y 0).val, hr⟩ : Fin 10000) (⟨(y 1).val, hy1⟩ : Fin 256)) (Ideal.ofBits .f32 0x00000000#32)
  rw [layerAt_eq_rowLayer]
  have eA : (fun k : Fin 10000 => (iblk0 V c 0 t : S400x10000.Idx → EReal) (ix2 (⟨(y 0).val, hy0⟩ : Fin 400) k))
      = fun k => V c main_arg1 (ix2 (⟨400 * t.val + (y 0).val, hr⟩ : Fin 10000) k) :=
    funext fun k => blkA V c t ⟨(y 0).val, hy0⟩ k hr
  exact congrArg (max · (Ideal.ofBits .f32 0x00000000#32)) (congrArg (fun a => rowLayer a _ _ _ _ _ _) eA)

/-- An index of the output is in point t's block iff each coordinate is in the block's range on its axis. -/
theorem mem_blk (t : Fin cfg0.N) (i : S10000x256.Idx) :
    i ∈ ((cfg0.win 5).blk t).view.set ↔ ∀ a : Fin 2, win0_5.index t a * S400x256.size a ≤ (i a).val ∧ (i a).val < win0_5.index t a * S400x256.size a + S400x256.size a := by
  show i ∈ ((View.whole main_v7).slice (win0_5.rect t)).set ↔ _
  rw [View.set_slice_whole, Rect.mem_set_unit]
  exact Iff.rfl

/-- The 25 blocks tile the output: row r is in point r / 400's block. -/
theorem cover (i : S10000x256.Idx) : ∃ t : Fin cfg0.N, (cfg0.win 5).flush t = true ∧ i ∈ ((cfg0.win 5).blk t).view.set := by
  have hi0 : (i 0).val < 10000 := (i 0).isLt
  have hi1 : (i 1).val < 256 := (i 1).isLt
  have hN : cfg0.N = 25 := N_0
  have hlt : (i 0).val / 400 < cfg0.N := by rw [hN]; omega
  obtain ⟨-, -, -, -, -, -, -, -, -, -, e50, e51, -⟩ := idx_facts ⟨(i 0).val / 400, hlt⟩
  refine ⟨⟨(i 0).val / 400, hlt⟩, flush0_5 _, ?_⟩
  rw [mem_blk]
  intro a
  match a with
  | ⟨0, _⟩ =>
    show win0_5.index ⟨(i 0).val / 400, hlt⟩ (0 : Fin 2) * 400 ≤ (i 0).val ∧ (i 0).val < win0_5.index ⟨(i 0).val / 400, hlt⟩ (0 : Fin 2) * 400 + 400
    rw [e50]; show (i 0).val / 400 * 400 ≤ (i 0).val ∧ (i 0).val < (i 0).val / 400 * 400 + 400; omega
  | ⟨1, _⟩ =>
    show win0_5.index ⟨(i 0).val / 400, hlt⟩ (1 : Fin 2) * 256 ≤ (i 1).val ∧ (i 1).val < win0_5.index ⟨(i 0).val / 400, hlt⟩ (1 : Fin 2) * 256 + 256
    rw [e51]; omega

/-- The output array after the region is the layer's output of the arrays the region finds. -/
theorem final (c : Dev nD) : (dat0 V c).arrAt 5 cfg0.N = out V c :=
  (dat0 V c).arrAt_eq_of_cover 5 (out V c) (fun t _ => flushed_eq V c t) (cover)

end Cert.KernelIdeal.Layer0

end
-- ==== Proof.Found1.lean ====
/-
  What the body of region 1 leaves in its output's staging buffer.

  The body makes one store, through the whole [400, 256] block, of its payload; the payload's operands are the whole
  staging buffers of the adjacency band, the features, the weights, the bias row and the scale, and the 400 rows of the
  features that start at row 400 · i (i the grid coordinate). So the buffer ends holding the payload of the input
  blocks, with the band's own feature rows read out of the feature block.
-/
import proofs.«107812_g46196668235778_cont_8to1c4_352_3_alg».proof.Proof.Gen.KernelIdeal.Frame
import Idealize.ShloMosaic.Lib.Pipeline.Value
import Idealize.ShloMosaic.Lib.Tactic

noncomputable section

namespace Cert.KernelIdeal.Found1

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- The output's staging buffer after the body: the payload of the input blocks, the band's own feature rows being
    rows 400 · i … 400 · i + 399 of the feature block. -/
theorem piece (c : Dev nD) (i : grid1.Coords) (a1 : Memref sig .tc .vmem S400x10000 .f32) (h1 : a1.IsWhole)
    (a2 : Memref sig .tc .vmem S10000x256 .bf16) (h2 : a2.IsWhole) (a3 : Memref sig .tc .vmem S256x256 .bf16) (h3 : a3.IsWhole)
    (a4 : Memref sig .tc .vmem S1x256 .f32) (h4 : a4.IsWhole) (a5 : Memref sig .tc .vmem S1x1 .f32) (h5 : a5.IsWhole)
    (a6 : Memref sig .tc .vmem S400x256 .f32) (h6 : a6.IsWhole)
    (x0 : Vec F S400x10000 .f32) (x1 : Vec F S10000x256 .bf16) (x2 : Vec F S256x256 .bf16) (x3 : Vec F S1x256 .f32) (x4 : Vec F S1x1 .f32) :
    out1_A_5 c i a1 h1 a2 h2 a3 h3 a4 h4 a5 h5 a6 h6 x0 x1 x2 x3 x4
      = k1_pay1 x0 x1 x4 (View.ld x1 (Rect.unit (s := S10000x256) (k1_off1 i) S400x256.size (k1_off1_inb i))) x2 x3 := by
  unfold out1_A_5
  rw [View.read_writes_eq_canon _ _ _ (cover1_A_5 c i a1 h1 a2 h2 a3 h3 a4 h4 a5 h5 a6 h6 x0 x1 x2 x3 x4)]
  unfold kernelRun1_A
  dsimp only
  rw [View.canon_unit_zero hz]
  simp only [View.readAt_eq_ld, h1.read_unread, h2.read_unread, h3.read_unread, h4.read_unread, h5.read_unread,
    View.ld_unit_zero (S := S400x10000) hz, View.ld_unit_zero (S := S10000x256) hz, View.ld_unit_zero (S := S256x256) hz,
    View.ld_unit_zero (S := S1x256) hz, View.ld_unit_zero (S := S1x1) hz]

end Cert.KernelIdeal.Found1

end
-- ==== Proof.Band1.lean ====
/-
  The second layer's row band, entry by entry.

  As in the first layer, with 256 input features and no rectifier: at a grid point the body holds a band of 400 rows
  of the adjacency matrix (`x0`), the whole [10000, 256] feature matrix (`x1`), the band's own rows of it (`x9`), the
  weights (`x2`), the bias row (`x3`) and the scale (`x4`), and stores at (p, q) the layer's entry for the band's row p
  and column q.
-/
import proofs.«107812_g46196668235778_cont_8to1c4_352_3_alg».proof.Proof.Gen.KernelIdeal.Skeleton
import proofs.«107812_g46196668235778_cont_8to1c4_352_3_alg».proof.Proof.LibDenseLayer
import Idealize.ShloMosaic.Lib.ValueLayout

noncomputable section

namespace Cert.KernelIdeal.Band1

open Cert.KernelIdeal Cert.KernelIdeal.Gen Cert.DenseLayer
open Idealize.ShloMosaic Idealize.ShloMosaic.ValueIdx

/-- The first product's index facts: [400, 10000] by [10000, 256], contracting the long axis. -/
theorem agg_l0 (i : S400x256.Idx) (q : dot_S400x10000_S10000x256_S400x256_1_0_0_1_n_n.contr.Idx) :
    (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
theorem agg_r1 (i : S400x256.Idx) (q : dot_S400x10000_S10000x256_S400x256_1_0_0_1_n_n.contr.Idx) :
    (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

/-- The neighbours' sum at (p, j): row p of the band times column j of the features. -/
theorem agg_apply {φ₁ φ₂ : FTy} (L : FVec Ideal S400x10000 φ₁) (R : FVec Ideal S10000x256 φ₂) (p : Fin 400) (j : Fin 256) :
    FloatOps.matmul dot_S400x10000_S10000x256_S400x256_1_0_0_1_n_n none L R (constant S400x256 .f32 0x00000000#32) (ix2 p j)
      = ∑ k : Fin 10000, L (ix2 p k) * R (ix2 k j) :=
  matmul_rows_cols dot_S400x10000_S10000x256_S400x256_1_0_0_1_n_n rfl rfl agg_l0
    (fun i q => dot_S400x10000_S10000x256_S400x256_1_0_0_1_n_n.lhsIdx_val_of_single rfl i q)
    (fun i q => dot_S400x10000_S10000x256_S400x256_1_0_0_1_n_n.rhsIdx_val_of_single rfl i q) agg_r1 none L R p j

/-- The second product's index facts: [400, 256] by [256, 256]. -/
theorem lin_l0 (i : S400x256.Idx) (q : dot_S400x256_S256x256_S400x256_1_0_0_1_n_n.contr.Idx) :
    (dot_S400x256_S256x256_S400x256_1_0_0_1_n_n.lhsIdx i q 0).val = (i 0).val := by
  unfold DotDims.lhsIdx
  rw [dif_neg (show ¬(0 : Fin S400x256.rank) ∈ dot_S400x256_S256x256_S400x256_1_0_0_1_n_n.lhsBatch by decide), dif_pos (show (0 : Fin S400x256.rank) ∈ dot_S400x256_S256x256_S400x256_1_0_0_1_n_n.lhsNonContracting by decide)]
  rfl
theorem lin_r1 (i : S400x256.Idx) (q : dot_S400x256_S256x256_S400x256_1_0_0_1_n_n.contr.Idx) :
    (dot_S400x256_S256x256_S400x256_1_0_0_1_n_n.rhsIdx i q 1).val = (i 1).val := by
  unfold DotDims.rhsIdx
  rw [dif_neg (show ¬(1 : Fin S256x256.rank) ∈ dot_S400x256_S256x256_S400x256_1_0_0_1_n_n.rhsBatch by decide), dif_pos (show (1 : Fin S256x256.rank) ∈ dot_S400x256_S256x256_S400x256_1_0_0_1_n_n.rhsNonContracting by decide)]
  rfl

/-- The linear map at (p, q): row p of the hidden band times column q of the weights. -/
theorem lin_apply {φ₁ φ₂ : FTy} (L : FVec Ideal S400x256 φ₁) (R : FVec Ideal S256x256 φ₂) (p : Fin 400) (q : Fin 256) :
    FloatOps.matmul dot_S400x256_S256x256_S400x256_1_0_0_1_n_n none L R (constant S400x256 .f32 0x00000000#32) (ix2 p q)
      = ∑ j : Fin 256, L (ix2 p j) * R (ix2 j q) :=
  matmul_rows_cols dot_S400x256_S256x256_S400x256_1_0_0_1_n_n rfl rfl lin_l0
    (fun i q => dot_S400x256_S256x256_S400x256_1_0_0_1_n_n.lhsIdx_val_of_single rfl i q)
    (fun i q => dot_S400x256_S256x256_S400x256_1_0_0_1_n_n.rhsIdx_val_of_single rfl i q) lin_r1 none L R p q

/-- What the body stores at (p, q) of the band: the layer's entry from row p of the adjacency band and row p of the
    band's own features. -/
theorem band_apply (x0 : Vec Ideal S400x10000 .f32) (x1 : Vec Ideal S10000x256 .bf16) (x4 : Vec Ideal S1x1 .f32)
    (x9 : Vec Ideal S400x256 .bf16) (x2 : Vec Ideal S256x256 .bf16) (x3 : Vec Ideal S1x256 .f32) (p : Fin 400) (q : Fin 256) :
    k1_pay1 (F := Ideal) x0 x1 x4 x9 x2 x3 (ix2 p q)
      = rowLayer (fun k => x0 (ix2 p k)) x1 x2 (fun c => x3 (ix2 (0 : Fin 1) c)) (x4 (ix2 (0 : Fin 1) (0 : Fin 1)))
          (fun j => x9 (ix2 p j)) q := by
  unfold k1_pay1
  simp only [shapeCast_self]
  unfold rowLayer
  refine congrArg₂ (· + ·) ?_ (broadcastTo_1b_ab_apply x3 _ p q)
  refine (lin_apply (φ₁ := .bf16) (φ₂ := .bf16) _ x2 p q).trans (Finset.sum_congr rfl fun j _ => ?_)
  refine congrArg (· * x2 (ix2 j q)) ?_
  have e4 : extractAt ![0, 0] x4 inpos_S1x1_p0_0 = x4 (ix2 (0 : Fin 1) (0 : Fin 1)) :=
    congrArg x4 (funext fun a => by match a with | ⟨0, _⟩ => rfl | ⟨1, _⟩ => rfl)
  exact congrArg₂ (· + ·) (agg_apply (φ₁ := .bf16) (φ₂ := .bf16) (truncf .bf16 x0 bitsLt_bf16_f32) x1 p j)
    (congrArg (· * x9 (ix2 p j)) e4)

end Cert.KernelIdeal.Band1

end
-- ==== Proof.Layer1.lean ====
/-
  Region 1: the output array after the region is the second layer of the arrays the region finds.

  The grid has 25 points; point t reads rows 400 t … 400 t + 399 of the adjacency matrix, the whole feature matrix, the
  weights, the bias row and the scale, and writes back rows 400 t … 400 t + 399 of the output. At row p and column q of
  its block the body's payload is the layer's entry (400 t + p, q) (the band lemma), the band's own feature rows being
  rows 400 t + p of the whole feature block; the 25 blocks tile the [10000, 256] output, so the array ends holding the
  layer's output, as one function of the arrays at the region's entry (`V`).
-/
import proofs.«107812_g46196668235778_cont_8to1c4_352_3_alg».proof.Proof.Gen.KernelIdeal.Frame
import proofs.«107812_g46196668235778_cont_8to1c4_352_3_alg».proof.Proof.Found1
import proofs.«107812_g46196668235778_cont_8to1c4_352_3_alg».proof.Proof.Band1
import proofs.«107812_g46196668235778_cont_8to1c4_352_3_alg».proof.Proof.LibDenseLayer
import Idealize.ShloMosaic.Lib.Pipeline.Value

noncomputable section

namespace Cert.KernelIdeal.Layer1

open Cert.KernelIdeal Cert.KernelIdeal.Gen Cert.DenseLayer
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps and the body's row offset, decided once over the 25 grid points: the adjacency band and
    the output block move with the point, every other window stays at block (0, 0), and the body reads its own
    feature rows from row 400 t. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ k1_off1 (grid1.coords t) (0 : Fin 2) = 400 * t.val ∧ k1_off1 (grid1.coords t) (1 : Fin 2) = 0 :=
  (by decide +kernel : ∀ t : Fin grid1.N, _)

/-- The layer's output as one function of the arrays the region finds: entry (r, c) from the adjacency matrix, the
    features, the weights, the bias row and the scale. -/
def out (c : Dev nD) : S10000x256.Idx → EReal := fun i =>
  layerAt (N := 10000) (K := 256) (M := 256) (V c main_arg1) (V c main_v7) (V c main_v8)
    (fun q => V c main_v9 (ix2 (0 : Fin 1) q)) (V c main_v3 (ix2 (0 : Fin 1) (0 : Fin 1))) (i 0) (i 1)

/-- The body's payload at index `y` of the band, on blocks of literal shapes: the layer's entry from row `y 0` of the
    adjacency band and row `o + y 0` of the feature block, `o` the body's row offset. -/
theorem point (x0 : Vec Ideal S400x10000 .f32) (x1 : Vec Ideal S10000x256 .bf16) (x4 : Vec Ideal S1x1 .f32)
    (x2 : Vec Ideal S256x256 .bf16) (x3 : Vec Ideal S1x256 .f32) (i : grid1.Coords) (y : S400x256.Idx) (o : ℕ)
    (ho : k1_off1 i (0 : Fin 2) = o) (ho1 : k1_off1 i (1 : Fin 2) = 0) (hr : o + (y 0).val < 10000) :
    k1_pay1 (F := Ideal) x0 x1 x4 (View.ld x1 (Rect.unit (s := S10000x256) (k1_off1 i) S400x256.size (k1_off1_inb i))) x2 x3 y
      = rowLayer (fun k => x0 (ix2 (y 0 : Fin 400) k)) x1 x2 (fun c => x3 (ix2 (0 : Fin 1) c))
          (x4 (ix2 (0 : Fin 1) (0 : Fin 1))) (fun j => x1 (ix2 (⟨o + (y 0).val, hr⟩ : Fin 10000) j)) (y 1 : Fin 256) := by
  obtain ⟨p, q, rfl⟩ : ∃ (p : Fin 400) (q : Fin 256), y = ix2 p q := ⟨y 0, y 1, eq_ix2 y⟩
  refine (Band1.band_apply x0 x1 x4 _ x2 x3 p q).trans ?_
  have e : (fun j : Fin 256 => View.ld x1 (Rect.unit (s := S10000x256) (k1_off1 i) S400x256.size (k1_off1_inb i)) (ix2 p j))
      = fun j => x1 (ix2 (⟨o + p.val, hr⟩ : Fin 10000) j) :=
    funext fun j => congrArg x1 (funext fun a => Fin.ext (by
      match a with
      | ⟨0, _⟩ => show k1_off1 i (0 : Fin 2) + 1 * p.val = o + p.val; rw [ho]; omega
      | ⟨1, _⟩ => show k1_off1 i (1 : Fin 2) + 1 * j.val = j.val; rw [ho1]; omega))
  rw [e]

/-- Each window that stays at block (0, 0) and whose block is its whole array reads that array. -/
theorem blkX (c : Dev nD) (t : Fin cfg1.N) : (iblk1 V c 1 t : S10000x256.Idx → EReal) = V c main_v7 := by
  obtain ⟨-, -, e0, e1, -⟩ := idx_facts t
  funext j
  show V c main_v7 (((cfg1.win 1).blk t).view.emb j) = V c main_v7 j
  refine congrArg (V c main_v7) (funext fun a => Fin.ext ?_)
  match a with
  | ⟨0, _⟩ => show win1_1.index t (0 : Fin 2) * 10000 + 1 * (j 0).val = (j 0).val; rw [e0]; omega
  | ⟨1, _⟩ => show win1_1.index t (1 : Fin 2) * 256 + 1 * (j 1).val = (j 1).val; rw [e1]; omega
theorem blkW (c : Dev nD) (t : Fin cfg1.N) : (iblk1 V c 2 t : S256x256.Idx → EReal) = V c main_v8 := by
  obtain ⟨-, -, -, -, e0, e1, -⟩ := idx_facts t
  funext j
  show V c main_v8 (((cfg1.win 2).blk t).view.emb j) = V c main_v8 j
  refine congrArg (V c main_v8) (funext fun a => Fin.ext ?_)
  match a with
  | ⟨0, _⟩ => show win1_2.index t (0 : Fin 2) * 256 + 1 * (j 0).val = (j 0).val; rw [e0]; omega
  | ⟨1, _⟩ => show win1_2.index t (1 : Fin 2) * 256 + 1 * (j 1).val = (j 1).val; rw [e1]; omega
theorem blkB (c : Dev nD) (t : Fin cfg1.N) : (iblk1 V c 3 t : S1x256.Idx → EReal) = V c main_v9 := by
  obtain ⟨-, -, -, -, -, -, e0, e1, -⟩ := idx_facts t
  funext j
  show V c main_v9 (((cfg1.win 3).blk t).view.emb j) = V c main_v9 j
  refine congrArg (V c main_v9) (funext fun a => Fin.ext ?_)
  match a with
  | ⟨0, _⟩ => show win1_3.index t (0 : Fin 2) * 1 + 1 * (j 0).val = (j 0).val; rw [e0]; omega
  | ⟨1, _⟩ => show win1_3.index t (1 : Fin 2) * 256 + 1 * (j 1).val = (j 1).val; rw [e1]; omega
theorem blkS (c : Dev nD) (t : Fin cfg1.N) : (iblk1 V c 4 t : S1x1.Idx → EReal) = V c main_v3 := by
  obtain ⟨-, -, -, -, -, -, -, -, e0, e1, -⟩ := idx_facts t
  funext j
  show V c main_v3 (((cfg1.win 4).blk t).view.emb j) = V c main_v3 j
  refine congrArg (V c main_v3) (funext fun a => Fin.ext ?_)
  match a with
  | ⟨0, _⟩ => show win1_4.index t (0 : Fin 2) * 1 + 1 * (j 0).val = (j 0).val; rw [e0]; omega
  | ⟨1, _⟩ => show win1_4.index t (1 : Fin 2) * 1 + 1 * (j 1).val = (j 1).val; rw [e1]; omega

/-- Row p of point t's adjacency band is row 400 t + p of the adjacency matrix. -/
theorem blkA (c : Dev nD) (t : Fin cfg1.N) (p : Fin 400) (k : Fin 10000) (hr : 400 * t.val + p.val < 10000) :
    (iblk1 V c 0 t : S400x10000.Idx → EReal) (ix2 p k) = V c main_arg1 (ix2 (⟨400 * t.val + p.val, hr⟩ : Fin 10000) k) := by
  obtain ⟨e0, e1, -⟩ := idx_facts t
  show V c main_arg1 (((cfg1.win 0).blk t).view.emb (ix2 p k)) = _
  refine congrArg (V c main_arg1) (funext fun a => Fin.ext ?_)
  match a with
  | ⟨0, _⟩ => show win1_0.index t (0 : Fin 2) * 400 + 1 * p.val = 400 * t.val + p.val; rw [e0]; omega
  | ⟨1, _⟩ => show win1_0.index t (1 : Fin 2) * 10000 + 1 * k.val = k.val; rw [e1]; omega

/-- What point t writes back is block t of the layer's output. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold outsAt1
  rw [Found1.piece]
  have hN : cfg1.N = 25 := N_1
  have ht : t.val < 25 := by have := t.isLt; omega
  obtain ⟨-, -, -, -, -, -, -, -, -, -, e50, e51, eo0, eo1⟩ := idx_facts t
  funext y
  have hy0 : (y 0).val < 400 := (y 0).isLt
  have hy1 : (y 1).val < 256 := (y 1).isLt
  have hr : 400 * t.val + (y 0).val < 10000 := by omega
  have he : ((cfg1.win 5).blk t).view.emb y = ix2 (⟨400 * t.val + (y 0).val, hr⟩ : Fin 10000) (⟨(y 1).val, hy1⟩ : Fin 256) :=
    funext fun a => Fin.ext (by
      match a with
      | ⟨0, _⟩ => show win1_5.index t (0 : Fin 2) * 400 + 1 * (y 0).val = 400 * t.val + (y 0).val; rw [e50]; omega
      | ⟨1, _⟩ => show win1_5.index t (1 : Fin 2) * 256 + 1 * (y 1).val = (y 1).val; rw [e51]; omega)
  show k1_pay1 (F := Ideal) (iblk1 V c 0 t) (iblk1 V c 1 t) (iblk1 V c 4 t)
      (View.ld (iblk1 V c 1 t) (Rect.unit (s := S10000x256) (k1_off1 (grid1.coords t)) S400x256.size (k1_off1_inb (grid1.coords t))))
      (iblk1 V c 2 t) (iblk1 V c 3 t) y = out V c (((cfg1.win 5).blk t).view.emb y)
  rw [he, blkX, blkW, blkB, blkS]
  refine (point (iblk1 V c 0 t) (V c main_v7) (V c main_v3) (V c main_v8) (V c main_v9) (grid1.coords t) y (400 * t.val) eo0 eo1 hr).trans ?_
  show _ = layerAt (N := 10000) (K := 256) (M := 256) (V c main_arg1) (V c main_v7) (V c main_v8)
    (fun q => V c main_v9 (ix2 (0 : Fin 1) q)) (V c main_v3 (ix2 (0 : Fin 1) (0 : Fin 1))) (⟨400 * t.val + (y 0).val, hr⟩ : Fin 10000) (⟨(y 1).val, hy1⟩ : Fin 256)
  rw [layerAt_eq_rowLayer]
  have eA : (fun k : Fin 10000 => (iblk1 V c 0 t : S400x10000.Idx → EReal) (ix2 (⟨(y 0).val, hy0⟩ : Fin 400) k))
      = fun k => V c main_arg1 (ix2 (⟨400 * t.val + (y 0).val, hr⟩ : Fin 10000) k) :=
    funext fun k => blkA V c t ⟨(y 0).val, hy0⟩ k hr
  exact congrArg (fun a => rowLayer a _ _ _ _ _ _) eA

/-- An index of the output is in point t's block iff each coordinate is in the block's range on its axis. -/
theorem mem_blk (t : Fin cfg1.N) (i : S10000x256.Idx) :
    i ∈ ((cfg1.win 5).blk t).view.set ↔ ∀ a : Fin 2, win1_5.index t a * S400x256.size a ≤ (i a).val ∧ (i a).val < win1_5.index t a * S400x256.size a + S400x256.size a := by
  show i ∈ ((View.whole main_v10).slice (win1_5.rect t)).set ↔ _
  rw [View.set_slice_whole, Rect.mem_set_unit]
  exact Iff.rfl

/-- The 25 blocks tile the output: row r is in point r / 400's block. -/
theorem cover (i : S10000x256.Idx) : ∃ t : Fin cfg1.N, (cfg1.win 5).flush t = true ∧ i ∈ ((cfg1.win 5).blk t).view.set := by
  have hi0 : (i 0).val < 10000 := (i 0).isLt
  have hi1 : (i 1).val < 256 := (i 1).isLt
  have hN : cfg1.N = 25 := N_1
  have hlt : (i 0).val / 400 < cfg1.N := by rw [hN]; omega
  obtain ⟨-, -, -, -, -, -, -, -, -, -, e50, e51, -⟩ := idx_facts ⟨(i 0).val / 400, hlt⟩
  refine ⟨⟨(i 0).val / 400, hlt⟩, flush1_5 _, ?_⟩
  rw [mem_blk]
  intro a
  match a with
  | ⟨0, _⟩ =>
    show win1_5.index ⟨(i 0).val / 400, hlt⟩ (0 : Fin 2) * 400 ≤ (i 0).val ∧ (i 0).val < win1_5.index ⟨(i 0).val / 400, hlt⟩ (0 : Fin 2) * 400 + 400
    rw [e50]; show (i 0).val / 400 * 400 ≤ (i 0).val ∧ (i 0).val < (i 0).val / 400 * 400 + 400; omega
  | ⟨1, _⟩ =>
    show win1_5.index ⟨(i 0).val / 400, hlt⟩ (1 : Fin 2) * 256 ≤ (i 1).val ∧ (i 1).val < win1_5.index ⟨(i 0).val / 400, hlt⟩ (1 : Fin 2) * 256 + 256
    rw [e51]; omega

/-- The output array after the region is the layer's output of the arrays the region finds. -/
theorem final (c : Dev nD) : (dat1 V c).arrAt 5 cfg1.N = out V c :=
  (dat1 V c).arrAt_eq_of_cover 5 (out V c) (fun t _ => flushed_eq V c t) (cover)

end Cert.KernelIdeal.Layer1

end
-- ==== Proof.Boundary.lean ====
/-
  The arrays each region finds, as functions of the launch memory.

  Before the first region the host operations form the scale 1 + eps1 as a [1, 1] array, convert the features and the
  first weights to the narrower float format (the identity on extended reals) and view the first bias as a [1, 256] row;
  the adjacency matrix is an argument. Between the regions they convert the second weights and view the second bias as a
  row; the second scale was formed before the first region and no write-back touches it; the second region's features
  are the first region's output array; the adjacency matrix is still the argument, which the first region only reads.
-/
import proofs.«107812_g46196668235778_cont_8to1c4_352_3_alg».proof.Proof.Gen.KernelIdeal.Frame
import proofs.«107812_g46196668235778_cont_8to1c4_352_3_alg».proof.Proof.Layer0
import Idealize.ShloMosaic.Lib.StableHlo.Run
import Idealize.ShloMosaic.Lib.ValueLayout

noncomputable section

namespace Cert.KernelIdeal.Boundary

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- A scalar viewed as a [1, 1] array reads the scalar. -/
theorem cast_scalar (x : S_.Idx → EReal) (h : S_.ShapeCasts S1x1) (j : S1x1.Idx) : shapeCast S1x1 x h j = x ix0 :=
  congrArg x (eq_ix0 _)

/-! ## At the first region's entry -/

theorem in0_adj (c : Dev nD) : V1 m ρ c main_arg1 = m ((c : Thread nD τ).loc main_arg1) := by
  show StableHlo.after hostOps0 (W0 m ρ c) (Proc.devRef .tc main_arg1) = _
  after_results

theorem in0_feat (c : Dev nD) : (V1 m ρ c main_v4 : S10000x128.Idx → EReal) = m ((c : Thread nD τ).loc main_arg0) := by
  show StableHlo.after hostOps0 (W0 m ρ c) (Proc.devRef .tc main_v4) = _
  after_results
  rfl

theorem in0_weights (c : Dev nD) : (V1 m ρ c main_v5 : S128x256.Idx → EReal) = m ((c : Thread nD τ).loc main_arg2) := by
  show StableHlo.after hostOps0 (W0 m ρ c) (Proc.devRef .tc main_v5) = _
  after_results
  rfl

theorem in0_bias (c : Dev nD) (q : Fin 256) :
    (V1 m ρ c main_v6 : S1x256.Idx → EReal) (ix2 (0 : Fin 1) q) = m ((c : Thread nD τ).loc main_arg3) (ix1 q) := by
  have e : (V1 m ρ c main_v6 : S1x256.Idx → EReal)
      = shapeCast S1x256 (m ((c : Thread nD τ).loc main_arg3) : S256.Idx → EReal) shapeCasts_S256_S1x256 := by
    show StableHlo.after hostOps0 (W0 m ρ c) (Proc.devRef .tc main_v6) = _
    after_results
    rfl
  rw [e]
  exact shapeCast_a_1a_apply _ _ 0 q

theorem in0_scale (c : Dev nD) (j : S1x1.Idx) :
    (V1 m ρ c main_v1 : S1x1.Idx → EReal) j = Ideal.ofBits .f32 0x3F800000#32 + m ((c : Thread nD τ).loc main_arg4) ix0 := by
  have e : (V1 m ρ c main_v1 : S1x1.Idx → EReal)
      = shapeCast S1x1 (addf (constant (F := Ideal) S_ .f32 0x3F800000#32) (m ((c : Thread nD τ).loc main_arg4)) : S_.Idx → EReal) shapeCasts_S_S1x1 := by
    show StableHlo.after hostOps0 (W0 m ρ c) (Proc.devRef .tc main_v1) = _
    after_results
    rfl
  rw [e, cast_scalar]
  rfl

/-- The second scale, formed before the first region. -/
theorem in0_scale2 (c : Dev nD) (j : S1x1.Idx) :
    (V1 m ρ c main_v3 : S1x1.Idx → EReal) j = Ideal.ofBits .f32 0x3F800000#32 + m ((c : Thread nD τ).loc main_arg7) ix0 := by
  have e : (V1 m ρ c main_v3 : S1x1.Idx → EReal)
      = shapeCast S1x1 (addf (constant (F := Ideal) S_ .f32 0x3F800000#32) (m ((c : Thread nD τ).loc main_arg7)) : S_.Idx → EReal) shapeCasts_S_S1x1 := by
    show StableHlo.after hostOps0 (W0 m ρ c) (Proc.devRef .tc main_v3) = _
    after_results
    rfl
  rw [e, cast_scalar]
  rfl

theorem in0_arg5 (c : Dev nD) : V1 m ρ c main_arg5 = m ((c : Thread nD τ).loc main_arg5) := by
  show StableHlo.after hostOps0 (W0 m ρ c) (Proc.devRef .tc main_arg5) = _
  after_results

theorem in0_arg6 (c : Dev nD) : V1 m ρ c main_arg6 = m ((c : Thread nD τ).loc main_arg6) := by
  show StableHlo.after hostOps0 (W0 m ρ c) (Proc.devRef .tc main_arg6) = _
  after_results

/-! ## At the second region's entry -/

theorem in1_adj (c : Dev nD) : V3 m ρ c main_arg1 = m ((c : Thread nD τ).loc main_arg1) := by
  show StableHlo.after hostOps1 (W2 m ρ c) (Proc.devRef .tc main_arg1) = _
  after_results
  exact ((W2_arr m ρ c 0).trans (((dat0 (V1 m ρ) c).arrAt_in 0 rfl _).trans (A_eq0 (V1 m ρ) c 0))).trans (in0_adj m ρ c)

/-- The second region's features are the first region's output. -/
theorem in1_feat (c : Dev nD) : V3 m ρ c main_v7 = Layer0.out (V1 m ρ) c := by
  show StableHlo.after hostOps1 (W2 m ρ c) (Proc.devRef .tc main_v7) = _
  after_results
  exact (W2_arr m ρ c 5).trans (Layer0.final (V1 m ρ) c)

theorem in1_weights (c : Dev nD) : (V3 m ρ c main_v8 : S256x256.Idx → EReal) = m ((c : Thread nD τ).loc main_arg5) := by
  show StableHlo.after hostOps1 (W2 m ρ c) (Proc.devRef .tc main_v8) = _
  after_results
  rw [W2_of_ne m ρ c main_arg5 (by decide)]
  exact in0_arg5 m ρ c

theorem in1_bias (c : Dev nD) (q : Fin 256) :
    (V3 m ρ c main_v9 : S1x256.Idx → EReal) (ix2 (0 : Fin 1) q) = m ((c : Thread nD τ).loc main_arg6) (ix1 q) := by
  have e : (V3 m ρ c main_v9 : S1x256.Idx → EReal)
      = shapeCast S1x256 (m ((c : Thread nD τ).loc main_arg6) : S256.Idx → EReal) shapeCasts_S256_S1x256 := by
    show StableHlo.after hostOps1 (W2 m ρ c) (Proc.devRef .tc main_v9) = _
    after_results
    rw [W2_of_ne m ρ c main_arg6 (by decide)]
    exact congrArg (fun x : S256.Idx → EReal => fun i => shapeCast S1x256 x shapeCasts_S256_S1x256 i) (in0_arg6 m ρ c)
  rw [e]
  exact shapeCast_a_1a_apply _ _ 0 q

theorem in1_scale (c : Dev nD) (j : S1x1.Idx) :
    (V3 m ρ c main_v3 : S1x1.Idx → EReal) j = Ideal.ofBits .f32 0x3F800000#32 + m ((c : Thread nD τ).loc main_arg7) ix0 := by
  have e : V3 m ρ c main_v3 = V1 m ρ c main_v3 := by
    show StableHlo.after hostOps1 (W2 m ρ c) (Proc.devRef .tc main_v3) = _
    after_results
    exact W2_of_ne m ρ c main_v3 (by decide)
  rw [e]
  exact in0_scale2 m ρ c j

end Cert.KernelIdeal.Boundary

end
-- ==== Proof.Spec.lean ====
/-
  The two-layer network as one function of its eight arguments.

  `hidden`: the first layer rectified — entry (r, c) is max(·, 0) of the layer's entry for the adjacency matrix `x1`,
  the input features `x0`, the weights `x2`, the bias `x3` and the scale 1 + `x4`. `result`: the second layer over the
  hidden features, with the weights `x5`, the bias `x6` and the scale 1 + `x7`. Both the blocked program and the
  whole-array program end with their result array at `result` of the argument arrays.
  The constants one and zero are kept as the float words they are written with: the same words on both sides.
-/
import proofs.«107812_g46196668235778_cont_8to1c4_352_3_alg».proof.Proof.LibDenseLayer

noncomputable section

namespace Cert.Gin

open Idealize.ShloMosaic Idealize.ShloMosaic.ValueIdx Cert.DenseLayer

/-- The hidden features: the rectified first layer. -/
def hidden (x0 : (⟨2, ![10000, 128]⟩ : Shape).Idx → EReal) (x1 : (⟨2, ![10000, 10000]⟩ : Shape).Idx → EReal)
    (x2 : (⟨2, ![128, 256]⟩ : Shape).Idx → EReal) (x3 : (⟨1, ![256]⟩ : Shape).Idx → EReal)
    (x4 : (⟨0, ![]⟩ : Shape).Idx → EReal) : (⟨2, ![10000, 256]⟩ : Shape).Idx → EReal := fun i =>
  max (layerAt (N := 10000) (K := 128) (M := 256) x1 x0 x2 (fun q => x3 (ix1 q))
    (Ideal.ofBits .f32 0x3F800000#32 + x4 ix0) (i 0) (i 1)) (Ideal.ofBits .f32 0x00000000#32)

/-- The network's output: the second layer over the hidden features. -/
def result (x0 : (⟨2, ![10000, 128]⟩ : Shape).Idx → EReal) (x1 : (⟨2, ![10000, 10000]⟩ : Shape).Idx → EReal)
    (x2 : (⟨2, ![128, 256]⟩ : Shape).Idx → EReal) (x3 : (⟨1, ![256]⟩ : Shape).Idx → EReal)
    (x4 : (⟨0, ![]⟩ : Shape).Idx → EReal) (x5 : (⟨2, ![256, 256]⟩ : Shape).Idx → EReal)
    (x6 : (⟨1, ![256]⟩ : Shape).Idx → EReal) (x7 : (⟨0, ![]⟩ : Shape).Idx → EReal) :
    (⟨2, ![10000, 256]⟩ : Shape).Idx → EReal := fun i =>
  layerAt (N := 10000) (K := 256) (M := 256) x1 (hidden x0 x1 x2 x3 x4) x5 (fun q => x6 (ix1 q))
    (Ideal.ofBits .f32 0x3F800000#32 + x7 ix0) (i 0) (i 1)

end Cert.Gin

end
-- ==== Proof.Network.lean ====
/-
  The blocked program computes `result`.

  The first region's output array is `hidden` of the arguments: it is the rectified first layer of the arrays the region
  finds, and those are the arguments (converted, viewed as rows, the scale formed on the host). The second region's
  output array — the program's result — is the second layer of the arrays that region finds: the adjacency matrix, the
  first region's output, the second weights, bias and scale.
-/
import proofs.«107812_g46196668235778_cont_8to1c4_352_3_alg».proof.Proof.KernelRun
import proofs.«107812_g46196668235778_cont_8to1c4_352_3_alg».proof.Proof.Layer0
import proofs.«107812_g46196668235778_cont_8to1c4_352_3_alg».proof.Proof.Layer1
import proofs.«107812_g46196668235778_cont_8to1c4_352_3_alg».proof.Proof.Boundary
import proofs.«107812_g46196668235778_cont_8to1c4_352_3_alg».proof.Proof.Spec

noncomputable section

namespace Cert.KernelIdeal.Network

open Cert.KernelIdeal Cert.KernelIdeal.Gen Cert.KernelIdeal.Boundary Cert.Gin
open Idealize.ShloMosaic Idealize.ShloMosaic.TcCoe Idealize.SL.Sem Idealize.ShloMosaic.ValueIdx

variable (m : (ℓ : Loc nD τ sig) → Buf (Elt Ideal) ℓ) (ρ : Dev nD → PrngReg)

/-- The first region's output is the hidden features of the arguments. -/
theorem layer0_eq (c : Dev nD) : Layer0.out (V1 m ρ) c
    = Cert.Gin.hidden (m ((c : Thread nD τ).loc main_arg0)) (m ((c : Thread nD τ).loc main_arg1)) (m ((c : Thread nD τ).loc main_arg2))
        (m ((c : Thread nD τ).loc main_arg3)) (m ((c : Thread nD τ).loc main_arg4)) := by
  unfold Layer0.out Cert.Gin.hidden
  funext i
  rw [in0_adj m ρ c, in0_feat m ρ c, in0_weights m ρ c, in0_scale m ρ c,
    show (fun q : Fin 256 => (V1 m ρ c main_v6 : S1x256.Idx → EReal) (ix2 (0 : Fin 1) q))
      = fun q => m ((c : Thread nD τ).loc main_arg3) (ix1 q) from funext (in0_bias m ρ c)]

/-- The program's result array at the end of the run is `result` of the arguments. -/
theorem result_eq (c : Dev nD) : (W4 m ρ c (Proc.devRef .tc main_v10) : S10000x256.Idx → EReal)
    = Cert.Gin.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W4_arr m ρ c 5).trans ((Layer1.final (V3 m ρ) c).trans ?_)
  unfold Layer1.out Cert.Gin.result
  funext i
  rw [in1_adj m ρ c, in1_feat m ρ c, layer0_eq m ρ c, in1_weights m ρ c, in1_scale m ρ c,
    show (fun q : Fin 256 => (V3 m ρ c main_v9 : S1x256.Idx → EReal) (ix2 (0 : Fin 1) q))
      = fun q => m ((c : Thread nD τ).loc main_arg6) (ix1 q) from funext (in1_bias m ρ c)]

/-- Every weakly fair execution of the blocked program terminates with its result array at `result` of the argument
    arrays and the argument arrays unchanged. -/
theorem run : θ_run defs (onTc (τ := τ) (main (F := Ideal))) ⟨m, fun _ => 0, ρ⟩ (fun r => ∀ c : Dev nD,
      r.2.mem ((c.tc : Thread nD τ).loc main_v10)
        = Cert.Gin.result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.Whole.run_main m ρ)

end Cert.KernelIdeal.Network

end
-- ==== Proof.RefLayers.lean ====
/-
  The whole-array program computes `result`.

  Read one operation at a time: each `dot_general` is the sum over its contracted axis, the scale is broadcast from the
  scalar 1 + eps, the bias is broadcast over the rows, and the rectifier is the maximum with a broadcast zero. The
  program adds the scaled own features BEFORE the neighbours' sum; addition of extended reals is commutative.
-/
import proofs.«107812_g46196668235778_cont_8to1c4_352_3_alg».proof.Proof.Gen.ReferenceIdeal.Read
import proofs.«107812_g46196668235778_cont_8to1c4_352_3_alg».proof.Proof.Spec

noncomputable section

namespace Cert.ReferenceIdeal.Layers

open Cert.ReferenceIdeal Cert.ReferenceIdeal.Read Cert.DenseLayer Cert.Gin
open Idealize.ShloMosaic Idealize.ShloMosaic.ValueIdx

/-- The rectified first layer, at (r, c). -/
theorem hidden_apply (x0 : S10000x128.Idx → EReal) (x1 : S10000x10000.Idx → EReal) (x2 : S128x256.Idx → EReal)
    (x3 : S256.Idx → EReal) (x4 : S_.Idx → EReal) (r : Fin 10000) (c : Fin 256) :
    val_main_v9 (F := Ideal) x0 x1 x2 x3 x4 (ix2 r c)
      = max (layerAt (N := 10000) (K := 128) (M := 256) x1 x0 x2 (fun q => x3 (ix1 q)) (Ideal.ofBits .f32 0x3F800000#32 + x4 ix0) r c)
          (Ideal.ofBits .f32 0x00000000#32) := by
  rw [val_main_v9_apply, val_main_v8_apply, val_main_v5_apply, val_main_v7_apply, val_main_v6_apply,
    val_main_call0_v0_apply, val_main_call0_cst_apply]
  simp only [val_main_v4_apply, val_main_v3_apply, val_main_v2_apply, val_main_v1_apply, val_main_cst_apply, val_main_v0_apply]
  have e5l : ∀ k : Fin 128, lidx_main_v5 (ix2 r c) k = ix2 r k := fun k => funext fun a => by
    match a with | ⟨0, _⟩ => rfl | ⟨1, _⟩ => rfl
  have e5r : ∀ k : Fin 128, ridx_main_v5 (ix2 r c) k = ix2 k c := fun k => funext fun a => by
    match a with | ⟨0, _⟩ => rfl | ⟨1, _⟩ => rfl
  have e0l : ∀ (k : Fin 128) (k' : Fin 10000), lidx_main_v0 (ix2 r k) k' = ix2 r k' := fun k k' => funext fun a => by
    match a with | ⟨0, _⟩ => rfl | ⟨1, _⟩ => rfl
  have e0r : ∀ (k : Fin 128) (k' : Fin 10000), ridx_main_v0 (ix2 r k) k' = ix2 k' k := fun k k' => funext fun a => by
    match a with | ⟨0, _⟩ => rfl | ⟨1, _⟩ => rfl
  have e3 : idx_main_v6 (idx_main_v7 (ix2 r c)) = ix1 c := funext fun a => by
    match a with | ⟨0, _⟩ => rfl
  have e2 : ∀ i : S10000x128.Idx, idx_main_v2 i = ix0 := fun i => rfl
  simp only [e5l, e5r, e0l, e0r, e3, e2]
  exact congrArg (max · (Ideal.ofBits .f32 0x00000000#32)) (layerAt_comm x1 x0 x2 (fun q => x3 (ix1 q)) (Ideal.ofBits .f32 0x3F800000#32 + x4 ix0) r c)

/-- The rectified first layer is `hidden`. -/
theorem hidden_eq (x0 : S10000x128.Idx → EReal) (x1 : S10000x10000.Idx → EReal) (x2 : S128x256.Idx → EReal)
    (x3 : S256.Idx → EReal) (x4 : S_.Idx → EReal) : val_main_v9 (F := Ideal) x0 x1 x2 x3 x4 = hidden x0 x1 x2 x3 x4 := by
  funext i
  obtain ⟨r, c, rfl⟩ : ∃ (r : Fin 10000) (c : Fin 256), i = ix2 r c := ⟨i 0, i 1, eq_ix2 i⟩
  exact hidden_apply x0 x1 x2 x3 x4 r c

/-- The program's result is `result` of its arguments. -/
theorem result_eq (x0 : S10000x128.Idx → EReal) (x1 : S10000x10000.Idx → EReal) (x2 : S128x256.Idx → EReal)
    (x3 : S256.Idx → EReal) (x4 : S_.Idx → EReal) (x5 : S256x256.Idx → EReal) (x6 : S256.Idx → EReal) (x7 : S_.Idx → EReal) :
    val_main_v18 (F := Ideal) x0 x1 x2 x3 x4 x5 x6 x7 = result x0 x1 x2 x3 x4 x5 x6 x7 := by
  funext i
  obtain ⟨r, c, rfl⟩ : ∃ (r : Fin 10000) (c : Fin 256), i = ix2 r c := ⟨i 0, i 1, eq_ix2 i⟩
  rw [val_main_v18_apply, val_main_v15_apply, val_main_v17_apply, val_main_v16_apply]
  simp only [val_main_v14_apply, val_main_v13_apply, val_main_v12_apply, val_main_v11_apply, val_main_cst_0_apply, val_main_v10_apply]
  have e15l : ∀ k : Fin 256, lidx_main_v15 (ix2 r c) k = ix2 r k := fun k => funext fun a => by
    match a with | ⟨0, _⟩ => rfl | ⟨1, _⟩ => rfl
  have e15r : ∀ k : Fin 256, ridx_main_v15 (ix2 r c) k = ix2 k c := fun k => funext fun a => by
    match a with | ⟨0, _⟩ => rfl | ⟨1, _⟩ => rfl
  have e10l : ∀ (k : Fin 256) (k' : Fin 10000), lidx_main_v10 (ix2 r k) k' = ix2 r k' := fun k k' => funext fun a => by
    match a with | ⟨0, _⟩ => rfl | ⟨1, _⟩ => rfl
  have e10r : ∀ (k : Fin 256) (k' : Fin 10000), ridx_main_v10 (ix2 r k) k' = ix2 k' k := fun k k' => funext fun a => by
    match a with | ⟨0, _⟩ => rfl | ⟨1, _⟩ => rfl
  have e3 : idx_main_v16 (idx_main_v17 (ix2 r c)) = ix1 c := funext fun a => by
    match a with | ⟨0, _⟩ => rfl
  have e2 : ∀ i : S10000x256.Idx, idx_main_v12 i = ix0 := fun i => rfl
  simp only [e15l, e15r, e10l, e10r, e3, e2, hidden_eq]
  exact layerAt_comm x1 (hidden x0 x1 x2 x3 x4) x5 (fun q => x6 (ix1 q)) (Ideal.ofBits .f32 0x3F800000#32 + x7 ix0) r c

end Cert.ReferenceIdeal.Layers

end
-- ==== Proof.lean ====
/-
  A two-layer graph network over a dense adjacency matrix, evaluated in row bands, against its whole-array form.

  Each layer maps features X to (A · X + (1 + eps) · X) · W + b; the first layer is followed by a rectifier. The blocked
  program evaluates a layer in 25 bands of 400 rows: for a band it multiplies the band of A by the whole of X, adds the
  scaled band of X, multiplies by W and adds the bias row (and, in the first layer, takes the maximum with zero). The
  whole-array program does the same with one product per layer, adding the scaled features before the neighbours' sum.
  Over the extended reals a matrix product is the sum over its contracted axis, a change of float format is the identity
  and addition is commutative, so both programs end with their result array at the same function `Cert.Gin.result` of the
  argument arrays: entry (r, c) depends on row r of A only through the sums, so the bands restrict one function, and
  the 25 output blocks tile the result. No finiteness of the inputs is used.

  The frames of the two blocked programs are the generated ones; the whole-array program's frame is its generated run
  with the result dropped; the idealization rewrote nothing.
-/
import proofs.«107812_g46196668235778_cont_8to1c4_352_3_alg».proof.Defs
import proofs.«107812_g46196668235778_cont_8to1c4_352_3_alg».proof.Proof.Gen.Kernel
import proofs.«107812_g46196668235778_cont_8to1c4_352_3_alg».proof.Proof.Gen.Kernel.Skeleton
import proofs.«107812_g46196668235778_cont_8to1c4_352_3_alg».proof.Proof.Gen.Kernel.Launch
import proofs.«107812_g46196668235778_cont_8to1c4_352_3_alg».proof.Proof.Gen.Kernel.Points
import proofs.«107812_g46196668235778_cont_8to1c4_352_3_alg».proof.Proof.Gen.Kernel.Frame
import proofs.«107812_g46196668235778_cont_8to1c4_352_3_alg».proof.Proof.Gen.KernelIdeal
import proofs.«107812_g46196668235778_cont_8to1c4_352_3_alg».proof.Proof.Gen.KernelIdeal.Skeleton
import proofs.«107812_g46196668235778_cont_8to1c4_352_3_alg».proof.Proof.Gen.KernelIdeal.Launch
import proofs.«107812_g46196668235778_cont_8to1c4_352_3_alg».proof.Proof.Gen.KernelIdeal.Points
import proofs.«107812_g46196668235778_cont_8to1c4_352_3_alg».proof.Proof.Gen.KernelIdeal.Frame
import proofs.«107812_g46196668235778_cont_8to1c4_352_3_alg».proof.Proof.Gen.ReferenceIdeal
import proofs.«107812_g46196668235778_cont_8to1c4_352_3_alg».proof.Proof.Gen.ReferenceIdeal.Run
import proofs.«107812_g46196668235778_cont_8to1c4_352_3_alg».proof.Proof.Gen.ReferenceIdeal.Read
import proofs.«107812_g46196668235778_cont_8to1c4_352_3_alg».proof.Proof.Gen.Pre_finite_inputs
import proofs.«107812_g46196668235778_cont_8to1c4_352_3_alg».proof.Proof.Network
import proofs.«107812_g46196668235778_cont_8to1c4_352_3_alg».proof.Proof.RefLayers
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, run from memories that agree on the arguments, end with their result arrays at `Cert.Gin.result` of
    the arguments. -/
theorem algebraic : Cert.algebraic_KernelIdeal_ReferenceIdeal := by
  intro m ρ m' ρ' _ hagree
  refine ⟨fun c => Cert.Gin.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Network.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.Layers.result_eq, (hagree c).1, (hagree c).2.1,
    (hagree c).2.2.1, (hagree c).2.2.2.1, (hagree c).2.2.2.2.1, (hagree c).2.2.2.2.2.1, (hagree c).2.2.2.2.2.2.1,
    (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
